-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S65536x8 : Shape := ⟨2, ![65536, 8]⟩
abbrev S4096x512 : Shape := ⟨2, ![4096, 512]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S65536x8 : S_.BroadcastsInDim S65536x8 (![] : Fin 0 → Fin S65536x8.rank)
  reducesTo_S65536x8_S_d0_1 : S65536x8.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : FVec F S65536x8 .f32) (main_arg2 : IVec S4096x512 32) (main_arg3 : FVec F S4096 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S65536x8 .f32 := Host.absf main_arg1
  let main_cst_0 : FVec F S_ .f32 := constant S_ .f32 0x7F800000#32
  let main_v5 : FVec F S65536x8 .f32 := broadcastInDim S65536x8 ![] bcast_S_S65536x8 main_cst_0
  let main_v6 : IVec S65536x8 1 := cmpf .olt main_v4 main_v5
  let main_c_1 : IVec S_ 1 := constantI S_ 1 1#1
  let main_v7 : IVec S_ 1 := (fun x v => Host.reduce IntOp.andi x v reducesTo_S65536x8_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S65536x8 : Shape := ⟨2, ![65536, 8]⟩
abbrev S4096x512 : Shape := ⟨2, ![4096, 512]⟩
abbrev S4096 : Shape := ⟨1, ![4096]⟩
abbrev S_ : Shape := ⟨0, ![]⟩
abbrev S4096x512x1 : Shape := ⟨3, ![4096, 512, 1]⟩
abbrev S4096x512x8 : Shape := ⟨3, ![4096, 512, 8]⟩
abbrev S4096x4096 : Shape := ⟨2, ![4096, 4096]⟩
abbrev S4096x1 : Shape := ⟨2, ![4096, 1]⟩
abbrev S8192x4096 : Shape := ⟨2, ![8192, 4096]⟩
abbrev S1x4096 : Shape := ⟨2, ![1, 4096]⟩
abbrev S64x4096 : Shape := ⟨2, ![64, 4096]⟩

abbrev nBuf : Space → Nat
  | .hbm => 27
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S65536x8, .f32⟩
  | .hbm, ⟨2, _⟩ => ⟨S4096x512, .i32⟩
  | .hbm, ⟨3, _⟩ => ⟨S4096, .f32⟩
  | .hbm, ⟨4, _⟩ => ⟨S4096, .f32⟩
  | .hbm, ⟨5, _⟩ => ⟨S_, .i32⟩
  | .hbm, ⟨6, _⟩ => ⟨S4096x512, .i32⟩
  | .hbm, ⟨7, _⟩ => ⟨S4096x512, .i1⟩
  | .hbm, ⟨8, _⟩ => ⟨S_, .i32⟩
  | .hbm, ⟨9, _⟩ => ⟨S4096x512, .i32⟩
  | .hbm, ⟨10, _⟩ => ⟨S4096x512, .i32⟩
  | .hbm, ⟨11, _⟩ => ⟨S4096x512, .i32⟩
  | .hbm, ⟨12, _⟩ => ⟨S4096x512x1, .i32⟩
  | .hbm, ⟨13, _⟩ => ⟨S4096x512x8, .f32⟩
  | .hbm, ⟨14, _⟩ => ⟨S4096x4096, .f32⟩
  | .hbm, ⟨15, _⟩ => ⟨S_, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4096x4096, .bf16⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S4x2048x4096, .f32⟩
  | .local _ .vmem, ⟨0, _⟩ => ⟨S64x4096, .f32⟩
  | .local _ .vmem, ⟨1, _⟩ => ⟨S64x4096, .f32⟩
  | .local _ .vmem, ⟨2, _⟩ => ⟨S4096x4096, .bf16⟩
  | .local _ .vmem, ⟨3, _⟩ => ⟨S1x4096, .f32⟩
  | .local _ .vmem, ⟨4, _⟩ => ⟨S64x4096, .f32⟩
  | .local _ .vmem, ⟨5, _⟩ => ⟨S64x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  shapeCasts_S4096x512x8_S4096x4096 : S4096x512x8.ShapeCasts S4096x4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  shapeCasts_S8192x4096_S4x2048x4096 : S8192x4096.ShapeCasts S4x2048x4096
  gather_S65536x8_S4096x512x1_S4096x512x8_2_0_n_n_0_2_18_wf : GatherDims.WF S65536x8 S4096x512x1 S4096x512x8 [2] [0] [] [0] [] 2 ![1, 8]
  dot_S64x4096_S4096x4096_S64x4096_1_0_0_1_n_n_wf : DotDims.WF S64x4096 S4096x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S8192x4096.size a
  hwx0_0 : ∀ i : grid0.Coords, EltTy.bits .f32 = 32 ∨ (Rect.block (s := S8192x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S8192x4096.size a
  hwx0_3 : ∀ i : grid0.Coords, EltTy.bits .f32 = 32 ∨ (Rect.block (s := S8192x4096) S64x4096.size (cc0_transform_3 i) (hinb0_3 i)).WholeWords (EltTy.packing .f32)

variable [Facts₀]

def gather_S65536x8_S4096x512x1_S4096x512x8_2_0_n_n_0_2_18 : GatherDims S65536x8 S4096x512x1 S4096x512x8 where
  offsetDims := [2]
  collapsedSliceDims := [0]
  operandBatchingDims := []
  startIndicesBatchingDims := []
  startIndexMap := [0]
  indexVectorDim := 2
  sliceSizes := ![1, 8]
  wf := gather_S65536x8_S4096x512x1_S4096x512x8_2_0_n_n_0_2_18_wf
def dot_S64x4096_S4096x4096_S64x4096_1_0_0_1_n_n : DotDims S64x4096 S4096x4096 S64x4096 where
  lhsContracting := [1]
  rhsContracting := [0]
  lhsNonContracting := [0]
  rhsNonContracting := [1]
  lhsBatch := []
  rhsBatch := []
  wf := dot_S64x4096_S4096x4096_S64x4096_1_0_0_1_n_n_wf

abbrev win0_0 : Pipeline.Window sig grid0 :=
  Pipeline.Window.ofSpec (Memref.whole main_v13) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S65536x8 : Shape := ⟨2, ![65536, 8]⟩
abbrev S4096x512 : Shape := ⟨2, ![4096, 512]⟩
abbrev S4096 : Shape := ⟨1, ![4096]⟩
abbrev S_ : Shape := ⟨0, ![]⟩
abbrev S4096x512x1 : Shape := ⟨3, ![4096, 512, 1]⟩
abbrev S4096x512x8 : Shape := ⟨3, ![4096, 512, 8]⟩
abbrev S4096x4096 : Shape := ⟨2, ![4096, 4096]⟩
abbrev S4096x1 : Shape := ⟨2, ![4096, 1]⟩
abbrev S1x1x4096 : Shape := ⟨3, ![1, 1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S65536x8, .f32⟩
  | .hbm, ⟨2, _⟩ => ⟨S4096x512, .i32⟩
  | .hbm, ⟨3, _⟩ => ⟨S4096, .f32⟩
  | .hbm, ⟨4, _⟩ => ⟨S4096, .f32⟩
  | .hbm, ⟨5, _⟩ => ⟨S_, .i32⟩
  | .hbm, ⟨6, _⟩ => ⟨S4096x512, .i32⟩
  | .hbm, ⟨7, _⟩ => ⟨S4096x512, .i1⟩
  | .hbm, ⟨8, _⟩ => ⟨S_, .i32⟩
  | .hbm, ⟨9, _⟩ => ⟨S4096x512, .i32⟩
  | .hbm, ⟨10, _⟩ => ⟨S4096x512, .i32⟩
  | .hbm, ⟨11, _⟩ => ⟨S4096x512, .i32⟩
  | .hbm, ⟨12, _⟩ => ⟨S4096x512x1, .i32⟩
  | .hbm, ⟨13, _⟩ => ⟨S4096x512x8, .f32⟩
  | .hbm, ⟨14, _⟩ => ⟨S4096x4096, .f32⟩
  | .hbm, ⟨15, _⟩ => ⟨S_, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4x2048x4096, .f32⟩
  | .hbm, ⟨23, _⟩ => ⟨S1x1x4096, .f32⟩
  | .hbm, ⟨24, _⟩ => ⟨S4x2048x4096, .f32⟩
  | .hbm, ⟨25, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  shapeCasts_S4096x512x8_S4096x4096 : S4096x512x8.ShapeCasts S4096x4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S65536x8_S4096x512x1_S4096x512x8_2_0_n_n_0_2_18_wf : GatherDims.WF S65536x8 S4096x512x1 S4096x512x8 [2] [0] [] [0] [] 2 ![1, 8]
  dot_S4x2048x4096_S4096x4096_S4x2048x4096_2_0_01_1_n_n_wf : DotDims.WF S4x2048x4096 S4096x4096 S4x2048x4096 [2] [0] [0, 1] [1] [] []

variable [Facts₀]

def gather_S65536x8_S4096x512x1_S4096x512x8_2_0_n_n_0_2_18 : GatherDims S65536x8 S4096x512x1 S4096x512x8 where
  offsetDims := [2]
  collapsedSliceDims := [0]
  operandBatchingDims := []
  startIndicesBatchingDims := []
  startIndexMap := [0]
  indexVectorDim := 2
  sliceSizes := ![1, 8]
  wf := gather_S65536x8_S4096x512x1_S4096x512x8_2_0_n_n_0_2_18_wf
def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf

class Facts : Prop extends Facts₀ where

variable [Facts]
-- ==== Proof.BodyAtIndex.lean ====
/-
  The kernel body's one store, read at an index, on the extended reals.

  A grid point holds a block of 64 rows of the left operand (all 4096 columns), the whole 4096 × 4096 weight matrix and the
  bias as one row of 4096. The body narrows the rows to bf16 — the identity on the extended reals —, multiplies them by the
  weight matrix into a zero accumulator and adds the bias row to every row of the product. So entry (p, q) of what it
  stores is

      (Σ k < 4096, rows[p, k] · weights[k, q]) + bias[0, q].

  The contraction runs over the one contracted axis of each operand: axis 1 of the rows, axis 0 of the weights.
-/
import proofs.«119743_j74612171866404_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen Idealize.ShloMosaic Idealize.ShloMosaic.ValueIdx

/-- The body's product: 64 × 4096 by 4096 × 4096, contracting the rows' axis 1 with the weights' axis 0. -/
abbrev mm : DotDims S64x4096 S4096x4096 S64x4096 := dot_S64x4096_S4096x4096_S64x4096_1_0_0_1_n_n

/-- The left operand's row coordinate is the output's row. -/
theorem lhs_row (j : S64x4096.Idx) (q : mm.contr.Idx) : (mm.lhsIdx j q 0).val = (j 0).val := by
  unfold DotDims.lhsIdx
  rw [dif_neg (show ¬(0 : Fin S64x4096.rank) ∈ mm.lhsBatch by decide), dif_pos (show (0 : Fin S64x4096.rank) ∈ mm.lhsNonContracting by decide)]
  rfl
/-- The left operand's column coordinate is the contraction index. -/
theorem lhs_col (j : S64x4096.Idx) (q : mm.contr.Idx) : (mm.lhsIdx j q 1).val = (q ⟨0, by decide⟩).val :=
  mm.lhsIdx_val_of_single rfl j q
/-- The right operand's row coordinate is the contraction index. -/
theorem rhs_row (j : S64x4096.Idx) (q : mm.contr.Idx) : (mm.rhsIdx j q 0).val = (q ⟨0, by decide⟩).val :=
  mm.rhsIdx_val_of_single rfl j q
/-- The right operand's column coordinate is the output's column. -/
theorem rhs_col (j : S64x4096.Idx) (q : mm.contr.Idx) : (mm.rhsIdx j q 1).val = (j 1).val := by
  unfold DotDims.rhsIdx
  rw [dif_neg (show ¬(1 : Fin S4096x4096.rank) ∈ mm.rhsBatch by decide), dif_pos (show (1 : Fin S4096x4096.rank) ∈ mm.rhsNonContracting by decide)]
  rfl

/-- The product into a zero accumulator, at entry (p, q): the sum over the contracted axis. -/
theorem product_at (L : FVec Ideal S64x4096 .bf16) (R : FVec Ideal S4096x4096 .bf16) (p : Fin 64) (q : Fin 4096) :
    matmul mm none L R (constant (F := Ideal) S64x4096 .f32 0x00000000#32) (ix2 p q)
      = ∑ k : Fin 4096, L (ix2 p k) * R (ix2 k q) := by
  refine (Ideal.matmul_constant_zero_apply mm none L R (ix2 p q)).trans ?_
  rw [← Equiv.sum_comp (contrEquiv1 mm 4096 rfl rfl).symm]
  refine Finset.sum_congr rfl fun k _ => ?_
  have hk := contrEquiv1_symm_val mm 4096 rfl rfl k
  have el : mm.lhsIdx (ix2 p q) ((contrEquiv1 mm 4096 rfl rfl).symm k) = ix2 p k := funext fun a => Fin.ext (by
    match a with
    | ⟨0, _⟩ => exact lhs_row _ _
    | ⟨1, _⟩ => exact (lhs_col _ _).trans hk)
  have er : mm.rhsIdx (ix2 p q) ((contrEquiv1 mm 4096 rfl rfl).symm k) = ix2 k q := funext fun a => Fin.ext (by
    match a with
    | ⟨0, _⟩ => exact (rhs_row _ _).trans hk
    | ⟨1, _⟩ => exact rhs_col _ _)
  rw [el, er]

/-- The bias row spread over the 64 rows, at entry (p, q): the row's entry q. -/
theorem bias_at (b : FVec Ideal S1x4096 .f32) (p : Fin 64) (q : Fin 4096) :
    broadcastTo S64x4096 b broadcasts_S1x4096_S64x4096 (ix2 p q) = b (ix2 0 q) :=
  broadcastTo_apply b broadcasts_S1x4096_S64x4096 (ix2 p q) (ix2 0 q) (fun a => by
    match a with
    | ⟨0, _⟩ => show (0 : Nat) = if (1 : Nat) = 1 then 0 else _; rw [if_pos rfl]
    | ⟨1, _⟩ => show q.val = if (4096 : Nat) = 1 then 0 else q.val; rw [if_neg (by decide)])

/-- The body's stored value is the product of the loaded rows with the loaded weights, plus the bias row spread over
    the rows: the two identity reshapes and the narrowing to bf16 drop out. -/
theorem stored_eq (x0 : Vec Ideal S64x4096 .f32) (x1 : Vec Ideal S4096x4096 .bf16) (x2 : Vec Ideal S1x4096 .f32) :
    k0_pay1 (F := Ideal) x0 x1 x2
      = addf (matmul (φ₁ := .bf16) (φ₂ := .bf16) mm none x0 x1 (constant (F := Ideal) S64x4096 .f32 0x00000000#32))
          (broadcastTo S64x4096 x2 broadcasts_S1x4096_S64x4096) := by
  unfold k0_pay1
  dsimp only
  rw [shapeCast_self, shapeCast_self, shapeCast_self]
  rfl

/-- ENTRY (p, q) OF WHAT THE BODY STORES: the row-by-column sum plus the bias entry. -/
theorem stored_at (x0 : Vec Ideal S64x4096 .f32) (x1 : Vec Ideal S4096x4096 .bf16) (x2 : Vec Ideal S1x4096 .f32)
    (p : Fin 64) (q : Fin 4096) :
    k0_pay1 (F := Ideal) x0 x1 x2 (ix2 p q) = (∑ k : Fin 4096, x0 (ix2 p k) * x1 (ix2 k q)) + x2 (ix2 0 q) := by
  rw [stored_eq, addf_apply, product_at, bias_at]

end Cert.KernelIdeal.BodyValue

end
-- ==== Proof.AffineMap.lean ====
/-
  The result both programs compute, as ONE function of three arrays, on the extended reals: a left operand, a weight
  matrix W (4096 × 4096) and a bias vector, combined as "rows times W, plus the bias on every row",

      out[…, o] = (Σ k < 4096, left[…, k] · W[k, o]) + bias[o].

  It is written in the two arrangements that occur. FLAT: the left operand is 8192 × 4096 and the bias a 1 × 4096 row.
  BATCHED: the left operand is 4 × 2048 × 4096 and the bias a vector of 4096. Flattening the two leading axes of the
  left operand (row b · 2048 + s for batch b, position s), laying the bias out as a row, taking the flat form and
  splitting the rows again gives the batched form: every entry is the same sum of the same products, so nothing about
  the extended reals' arithmetic is used beyond reading the same terms.
-/
import Idealize.ShloMosaic.PureOps.Ideal
import Idealize.ShloMosaic.Lib.Pipeline.Value
import Idealize.ShloMosaic.Lib.ValueIdx

noncomputable section

namespace Cert.AffineMap

open Idealize.ShloMosaic Idealize.ShloMosaic.ValueIdx

abbrev Batched : Shape := ⟨3, ![4, 2048, 4096]⟩
abbrev Flat : Shape := ⟨2, ![8192, 4096]⟩
abbrev Weights : Shape := ⟨2, ![4096, 4096]⟩
abbrev BiasVec : Shape := ⟨1, ![4096]⟩
abbrev BiasRow : Shape := ⟨2, ![1, 4096]⟩

/-- FLAT: entry (r, o) is row r of the left operand times column o of W, plus the bias row's entry o. -/
def flat (X : Flat.Idx → EReal) (W : Weights.Idx → EReal) (B : BiasRow.Idx → EReal) : Flat.Idx → EReal :=
  fun i => (∑ k : Fin 4096, X (ix2 (i 0) k) * W (ix2 k (i 1))) + B (ix2 0 (i 1))

/-- BATCHED: entry (b, s, o) is row (b, s) of the left operand times column o of W, plus the bias's entry o. -/
def batched (x : Batched.Idx → EReal) (W : Weights.Idx → EReal) (b : BiasVec.Idx → EReal) : Batched.Idx → EReal :=
  fun i => (∑ k : Fin 4096, x (ix3 (i 0) (i 1) k) * W (ix2 k (i 2))) + b (ix1 (i 2))

/-- Batch b, position s is flat row b · 2048 + s. -/
abbrev flatRow (b : Fin 4) (s : Fin 2048) : Fin 8192 := ⟨b.val * 2048 + s.val, by have := b.isLt; have := s.isLt; omega⟩

/-- THE LAW: flatten the left operand's leading axes, lay the bias out as a row, take the flat form, split the rows
    again — the batched form, entry by entry the same sum. -/
theorem split_flat (x : Batched.Idx → EReal) (W : Weights.Idx → EReal) (b : BiasVec.Idx → EReal)
    (hx : Batched.ShapeCasts Flat) (hb : BiasVec.ShapeCasts BiasRow) (ho : Flat.ShapeCasts Batched) :
    shapeCast Batched (flat (shapeCast Flat x hx) W (shapeCast BiasRow b hb)) ho = batched x W b := by
  funext i
  obtain ⟨bb, s, o, rfl⟩ : ∃ (bb : Fin 4) (s : Fin 2048) (o : Fin 4096), i = ix3 bb s o := ⟨i 0, i 1, i 2, eq_ix3 i⟩
  rw [shapeCast_apply _ ho (ix3 bb s o) (ix2 (flatRow bb s) o) (by
    rw [Shape.rowMajor_val_two, Shape.rowMajor_val_three]; rfl)]
  show (∑ k : Fin 4096, shapeCast Flat x hx (ix2 (flatRow bb s) k) * W (ix2 k o)) + shapeCast BiasRow b hb (ix2 0 o)
      = (∑ k : Fin 4096, x (ix3 bb s k) * W (ix2 k o)) + b (ix1 o)
  have hrow : ∀ k : Fin 4096, shapeCast Flat x hx (ix2 (flatRow bb s) k) = x (ix3 bb s k) := fun k =>
    shapeCast_apply x hx (ix2 (flatRow bb s) k) (ix3 bb s k) (by
      rw [Shape.rowMajor_val_two, Shape.rowMajor_val_three]; rfl)
  have hbias : shapeCast BiasRow b hb (ix2 0 o) = b (ix1 o) :=
    shapeCast_apply b hb (ix2 0 o) (ix1 o) (by
      rw [Shape.rowMajor_val_two, Shape.rowMajor_val_one]; show o.val = 0 * 4096 + o.val; omega)
  rw [hbias]
  exact congrArg (· + b (ix1 o)) (Finset.sum_congr rfl fun k _ => by rw [hrow k])

end Cert.AffineMap

end
-- ==== Proof.BlocksToArray.lean ====
/-
  From what each grid point writes back to the whole output array of the region.

  The grid has 128 points. Point t reads rows 64·t … 64·t + 63 of the flattened left operand (all columns), the whole
  weight matrix and the whole bias row, and writes back rows 64·t … 64·t + 63 of the output. By Proof/BodyAtIndex.lean
  the entry (p, q) it stores is (Σ k, rows[p, k] · W[k, q]) + bias[0, q]; its row p is row 64·t + p of the array, so what
  it writes back is block t of the FLAT affine map (Proof/AffineMap.lean) of the three arrays as the region finds them.
  Row r lies in the block of point r / 64, so the 128 blocks cover the array, and the array ends holding the flat map.
-/
import proofs.«119743_j74612171866404_2_alg».proof.Proof.Gen.KernelIdeal.Frame
import proofs.«119743_j74612171866404_2_alg».proof.Proof.BodyAtIndex
import proofs.«119743_j74612171866404_2_alg».proof.Proof.AffineMap
import Idealize.ShloMosaic.Lib.Pipeline.Value
import Idealize.ShloMosaic.Lib.Tactic

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem origin_zero : (![0, 0] : Fin 2 → Nat) = fun _ => 0 := funext fun a => by fin_cases a <;> rfl

/-- The index maps over the grid: the left operand's and the output's block row is the point, every other block index 0. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point t's block of the left operand: entry (p, k) is entry (64·t + p, k) of the array. -/
theorem rows_block (c : Dev nD) (t : Fin cfg0.N) (p : Fin 64) (k : Fin 4096) (r : Fin 8192) (hr : r.val = t.val * 64 + p.val) :
    (iblk m c 0 t : Vec Ideal S64x4096 .f32) (ix2 p k) = (V m c main_v13 : S8192x4096.Idx → EReal) (ix2 r k) := by
  obtain ⟨e0, e1, -⟩ := block_indices t
  unfold iblk
  rw [View.read_apply]
  show V m c main_v13 _ = V m c main_v13 _
  congr 1
  funext a
  apply Fin.ext
  match a with
  | ⟨0, _⟩ => show win0_0.index t 0 * 64 + 1 * p.val = r.val; rw [e0, hr]; omega
  | ⟨1, _⟩ => show win0_0.index t 1 * 4096 + 1 * k.val = k.val; rw [e1]; omega

/-- Every point's block of the weights is the whole matrix. -/
theorem weights_block (c : Dev nD) (t : Fin cfg0.N) (k q : Fin 4096) :
    (iblk m c 1 t : Vec Ideal S4096x4096 .bf16) (ix2 k q) = (V m c main_v12 : S4096x4096.Idx → EReal) (ix2 k q) := by
  obtain ⟨-, -, e2, e3, -⟩ := block_indices t
  unfold iblk
  rw [View.read_apply]
  show V m c main_v12 _ = V m c main_v12 _
  congr 1
  funext a
  apply Fin.ext
  match a with
  | ⟨0, _⟩ => show win0_1.index t 0 * 4096 + 1 * k.val = k.val; rw [e2]; omega
  | ⟨1, _⟩ => show win0_1.index t 1 * 4096 + 1 * q.val = q.val; rw [e3]; omega

/-- Every point's block of the bias is the whole row. -/
theorem bias_block (c : Dev nD) (t : Fin cfg0.N) (q : Fin 4096) :
    (iblk m c 2 t : Vec Ideal S1x4096 .f32) (ix2 0 q) = (V m c main_v14 : S1x4096.Idx → EReal) (ix2 0 q) := by
  obtain ⟨-, -, -, -, e4, e5, -⟩ := block_indices t
  unfold iblk
  rw [View.read_apply]
  show V m c main_v14 _ = V m c main_v14 _
  congr 1
  funext a
  apply Fin.ext
  match a with
  | ⟨0, _⟩ => show win0_2.index t 0 * 1 + 1 * 0 = 0; rw [e4]
  | ⟨1, _⟩ => show win0_2.index t 1 * 4096 + 1 * q.val = q.val; rw [e5]; omega

/-- Loaded blocks that are rows r₀ + p of X, all of W and all of B store, at (p, q), the flat map's entry (r, q). -/
theorem stored_is_flat (X : Cert.AffineMap.Flat.Idx → EReal) (W : Cert.AffineMap.Weights.Idx → EReal)
    (B : Cert.AffineMap.BiasRow.Idx → EReal)
    (x0 : Vec Ideal S64x4096 .f32) (x1 : Vec Ideal S4096x4096 .bf16) (x2 : Vec Ideal S1x4096 .f32)
    (p : Fin 64) (q : Fin 4096) (r : Fin 8192)
    (h0 : ∀ k : Fin 4096, x0 (ix2 p k) = X (ix2 r k))
    (h1 : ∀ k : Fin 4096, x1 (ix2 k q) = W (ix2 k q))
    (h2 : x2 (ix2 0 q) = B (ix2 0 q)) :
    k0_pay1 (F := Ideal) x0 x1 x2 (ix2 p q) = Cert.AffineMap.flat X W B (ix2 r q) := by
  rw [Cert.KernelIdeal.BodyValue.stored_at]
  show (∑ k : Fin 4096, x0 (ix2 p k) * x1 (ix2 k q)) + x2 (ix2 0 q) = (∑ k : Fin 4096, X (ix2 r k) * W (ix2 k q)) + B (ix2 0 q)
  rw [h2]
  exact congrArg (· + B (ix2 0 q)) (Finset.sum_congr rfl fun k _ => by rw [h0 k, h1 k])

/-- WHAT POINT t WRITES BACK is block t of the flat affine map of the three arrays as the region finds them. -/
theorem written_back_is_flat_block (c : Dev nD) (t : Fin cfg0.N) :
    (dats m 0 c).flushed 3 t
      = ((cfg0.win 3).blk t).view.read (Elt Ideal) (Cert.AffineMap.flat (V m c main_v13) (V m c main_v12) (V m c main_v14)) := by
  show (cfg0.win 3).cut (grid0.coords t) ((dats m 0 c).after 3 t) = _
  rw [after0_3]
  unfold out0_3
  rw [View.canon_unit_zero origin_zero]
  simp only [View.ld_unit_zero (S := S64x4096) origin_zero, View.ld_unit_zero (S := S4096x4096) origin_zero, View.ld_unit_zero (S := S1x4096) origin_zero]
  obtain ⟨-, -, -, -, -, -, e6, e7⟩ := block_indices t
  have hN : cfg0.N = 128 := N_0
  funext j
  have hp : (j 0).val < 64 := (j 0).isLt
  have hq : (j 1).val < 4096 := (j 1).isLt
  have hr : t.val * 64 + (j 0).val < 8192 := by have := t.isLt; omega
  have hj : (j : S64x4096.Idx) = ix2 (⟨(j 0).val, hp⟩ : Fin 64) (⟨(j 1).val, hq⟩ : Fin 4096) :=
    funext fun a => Fin.ext (by match a with | ⟨0, _⟩ => rfl | ⟨1, _⟩ => rfl)
  have he : (((cfg0.win 3).blk t).view.emb j : S8192x4096.Idx)
      = ix2 (⟨t.val * 64 + (j 0).val, hr⟩ : Fin 8192) (⟨(j 1).val, hq⟩ : Fin 4096) :=
    funext fun a => Fin.ext (by
      match a with
      | ⟨0, _⟩ => show win0_3.index t 0 * 64 + 1 * (j 0).val = t.val * 64 + (j 0).val; rw [e6]; omega
      | ⟨1, _⟩ => show win0_3.index t 1 * 4096 + 1 * (j 1).val = (j 1).val; rw [e7]; omega)
  show k0_pay1 (F := Ideal) (iblk m c 0 t) (iblk m c 1 t) (iblk m c 2 t) j
      = Cert.AffineMap.flat (V m c main_v13) (V m c main_v12) (V m c main_v14) (((cfg0.win 3).blk t).view.emb j)
  rw [he]
  refine (congrArg (k0_pay1 (F := Ideal) (iblk m c 0 t) (iblk m c 1 t) (iblk m c 2 t)) hj).trans ?_
  exact stored_is_flat (V m c main_v13) (V m c main_v12) (V m c main_v14) (iblk m c 0 t) (iblk m c 1 t) (iblk m c 2 t)
    ⟨(j 0).val, hp⟩ ⟨(j 1).val, hq⟩ ⟨t.val * 64 + (j 0).val, hr⟩
    (fun k => rows_block m c t ⟨(j 0).val, hp⟩ k ⟨t.val * 64 + (j 0).val, hr⟩ rfl)
    (fun k => weights_block m c t k ⟨(j 1).val, hq⟩)
    (bias_block m c t ⟨(j 1).val, hq⟩)

/-- An index of the array is in point t's block iff each coordinate is in the block's range on its axis. -/
theorem mem_output_block (t : Fin cfg0.N) (i : S8192x4096.Idx) :
    i ∈ ((cfg0.win 3).blk t).view.set
      ↔ ∀ a : Fin 2, win0_3.index t a * S64x4096.size a ≤ (i a).val ∧ (i a).val < win0_3.index t a * S64x4096.size a + S64x4096.size a := by
  show i ∈ ((View.whole main_v15).slice (win0_3.rect t)).set ↔ _
  rw [View.set_slice_whole, Rect.mem_set_unit]
  exact Iff.rfl

/-- THE BLOCKS COVER THE ARRAY: row r is in the block of point r / 64. -/
theorem blocks_cover (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 128 := N_0
  have ht : (i 0).val / 64 < cfg0.N := by rw [hN]; omega
  refine ⟨⟨(i 0).val / 64, ht⟩, flush0_3 _, ?_⟩
  rw [mem_output_block]
  obtain ⟨-, -, -, -, -, -, e6, e7⟩ := block_indices ⟨(i 0).val / 64, ht⟩
  intro a
  match a with
  | ⟨0, _⟩ =>
    show win0_3.index ⟨(i 0).val / 64, ht⟩ 0 * 64 ≤ (i 0).val ∧ (i 0).val < win0_3.index ⟨(i 0).val / 64, ht⟩ 0 * 64 + 64
    rw [e6]; show (i 0).val / 64 * 64 ≤ (i 0).val ∧ (i 0).val < (i 0).val / 64 * 64 + 64; omega
  | ⟨1, _⟩ =>
    show win0_3.index ⟨(i 0).val / 64, ht⟩ 1 * 4096 ≤ (i 1).val ∧ (i 1).val < win0_3.index ⟨(i 0).val / 64, ht⟩ 1 * 4096 + 4096
    rw [e7]; omega

/-- THE OUTPUT ARRAY AFTER THE REGION: the flat affine map of the three arrays as the region finds them. -/
theorem output_array (c : Dev nD) :
    (dats m 0 c).arrAt 3 cfg0.N = Cert.AffineMap.flat (V m c main_v13) (V m c main_v12) (V m c main_v14) :=
  (dats m 0 c).arrAt_eq_of_cover 3 (Cert.AffineMap.flat (V m c main_v13) (V m c main_v12) (V m c main_v14))
    (fun t _ => written_back_is_flat_block m c t) blocks_cover

end Cert.KernelIdeal.ArrayValue

end
-- ==== Proof.RegionEntry.lean ====
/-
  What the three arrays the kernel reads hold when its region starts, as terms of the program's arguments.

  Before the region the program forms, on the host: the weight matrix W — labels wrapped if negative, the codebook's rows
  gathered by them and laid out 4096 × 4096, each row divided by its scale clipped below at the constant, then narrowed
  to bf16 —; the left operand x with its two leading axes flattened, 8192 × 4096; and the bias as a 1 × 4096 row. The
  weight term is kept closed (`weights`): it is the same composition of the same operations the reference applies, and
  nothing here looks inside it.
-/
import proofs.«119743_j74612171866404_2_alg».proof.Proof.Gen.KernelIdeal.Frame
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The weight matrix as the program forms it from the codebook `x1`, the labels `x2` and the scales `x3`. -/
def weights (x1 : (⟨S65536x8, .f32⟩ : BufTy).Contents (Elt Ideal)) (x2 : (⟨S4096x512, .i32⟩ : BufTy).Contents (Elt Ideal))
    (x3 : (⟨S4096, .f32⟩ : BufTy).Contents (Elt Ideal)) : (⟨S4096x4096, .bf16⟩ : BufTy).Contents (Elt Ideal) :=
  truncf .bf16
    (Host.divf (F := Ideal)
      (shapeCast _ (Host.gather gather_S65536x8_S4096x512x1_S4096x512x8_2_0_n_n_0_2_18 x1
        (broadcastInDim S4096x512x1 ![0, 1] bcast_S4096x512_S4096x512x1_0_1
          (select (cmpi .slt x2 (broadcastInDim S4096x512 ![] bcast_S_S4096x512 (constantI S_ 32 0#32)))
            (addi x2 (broadcastInDim S4096x512 ![] bcast_S_S4096x512 (constantI S_ 32 65536#32))) x2)))
        shapeCasts_S4096x512x8_S4096x4096)
      (broadcastInDim S4096x4096 ![0, 1] bcast_S4096x1_S4096x4096_0_1
        (broadcastInDim S4096x1 ![0] bcast_S4096_S4096x1_0
          (maximumf (broadcastInDim S4096 ![] bcast_S_S4096 (id (constant (F := Ideal) S_ .f32 0x322BCC77#32))) x3))))
    bitsLt_bf16_f32

/-- The weights' array at region entry. -/
theorem weights_entry (c : Dev nD) :
    (V m c main_v12 : (⟨S4096x4096, .bf16⟩ : BufTy).Contents (Elt Ideal))
      = weights (m ((c : Thread nD τ).loc main_arg1)) (m ((c : Thread nD τ).loc main_arg2)) (m ((c : Thread nD τ).loc main_arg3)) := by
  dsimp only [V, V0]
  simp only [hostOps0, hostOps0_1, hostOps0_2, List.flatten_cons, List.flatten_nil, List.append_nil, List.cons_append,
    List.nil_append]
  after_results
  rfl

/-- The left operand's array at region entry: x with its leading axes flattened. -/
theorem rows_entry (c : Dev nD) :
    (V m c main_v13 : (⟨S8192x4096, .f32⟩ : BufTy).Contents (Elt Ideal))
      = shapeCast S8192x4096 (m ((c : Thread nD τ).loc main_arg0)) shapeCasts_S4x2048x4096_S8192x4096 := by
  dsimp only [V, V0]
  simp only [hostOps0, hostOps0_1, hostOps0_2, List.flatten_cons, List.flatten_nil, List.append_nil, List.cons_append,
    List.nil_append]
  after_results
  rfl

/-- The bias's array at region entry: the bias as one row. -/
theorem bias_entry (c : Dev nD) :
    (V m c main_v14 : (⟨S1x4096, .f32⟩ : BufTy).Contents (Elt Ideal))
      = shapeCast S1x4096 (m ((c : Thread nD τ).loc main_arg4)) shapeCasts_S4096_S1x4096 := by
  dsimp only [V, V0]
  simp only [hostOps0, hostOps0_1, hostOps0_2, List.flatten_cons, List.flatten_nil, List.append_nil, List.cons_append,
    List.nil_append]
  after_results
  rfl

end Cert.KernelIdeal.Entry

end
-- ==== Proof.KernelRun.lean ====
/-
  The kernel program's run, read: its result is the batched affine map of its arguments.

  After the region the program splits the rows of the region's output array again, 8192 × 4096 to 4 × 2048 × 4096. The
  region leaves that array at the flat affine map of the three arrays it found (Proof/BlocksToArray.lean); those are x
  with its leading axes flattened, the weight matrix W and the bias laid out as a row (Proof/RegionEntry.lean). Flatten,
  take the flat map, split again: by the law of Proof/AffineMap.lean the result is

      out[b, s, o] = (Σ k < 4096, x[b, s, k] · W[k, o]) + bias[o].
-/
import proofs.«119743_j74612171866404_2_alg».proof.Proof.BlocksToArray
import proofs.«119743_j74612171866404_2_alg».proof.Proof.RegionEntry

noncomputable section

namespace Cert.KernelIdeal.RunValue

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The program's result after the line that follows the region: the region's output array with its rows split. -/
theorem result_tail (c : Dev nD) :
    (Pipeline.afterTail₀ cfgs (dats m) 0 (V0 m) [hostOps1] c main_v16 : (⟨S4x2048x4096, .f32⟩ : BufTy).Contents (Elt Ideal))
      = shapeCast S4x2048x4096 ((dats m 0 c).arrAt 3 cfg0.N) shapeCasts_S8192x4096_S4x2048x4096 := by
  unfold Pipeline.afterTail₀
  show StableHlo.after hostOps1 _ (Proc.devRef .tc main_v16) = _
  after_results
  exact congrArg (fun v => shapeCast S4x2048x4096 v shapeCasts_S8192x4096_S4x2048x4096)
    (Pipeline.withArrays_arr spec0 launch0.win.arr_inj c _ _ 3)

/-- THE KERNEL PROGRAM'S RESULT as a function of its arguments: the batched affine map of x, the weights and the bias. -/
theorem result_value (c : Dev nD) :
    (Pipeline.afterTail₀ cfgs (dats m) 0 (V0 m) [hostOps1] c main_v16 : (⟨S4x2048x4096, .f32⟩ : BufTy).Contents (Elt Ideal))
      = Cert.AffineMap.batched (m ((c : Thread nD τ).loc main_arg0))
          (Cert.KernelIdeal.Entry.weights (m ((c : Thread nD τ).loc main_arg1)) (m ((c : Thread nD τ).loc main_arg2)) (m ((c : Thread nD τ).loc main_arg3)))
          (m ((c : Thread nD τ).loc main_arg4)) := by
  rw [result_tail, Cert.KernelIdeal.ArrayValue.output_array, Cert.KernelIdeal.Entry.rows_entry, Cert.KernelIdeal.Entry.weights_entry,
    Cert.KernelIdeal.Entry.bias_entry]
  exact Cert.AffineMap.split_flat _ _ _ shapeCasts_S4x2048x4096_S8192x4096 shapeCasts_S4096_S1x4096 shapeCasts_S8192x4096_S4x2048x4096

/-- THE RUN, READ: every weakly fair execution ends with the result at the batched affine map of the arguments and the
    arguments unchanged. -/
theorem run : θ_run defs (onTc (τ := τ) (main (F := Ideal))) ⟨m, fun _ => 0, ρ⟩ fun r => ∀ c : Dev nD,
      r.2.mem ((c.tc : Thread nD τ).loc main_v16)
        = Cert.AffineMap.batched (m ((c : Thread nD τ).loc main_arg0))
            (Cert.KernelIdeal.Entry.weights (m ((c : Thread nD τ).loc main_arg1)) (m ((c : Thread nD τ).loc main_arg2)) (m ((c : Thread nD τ).loc main_arg3)))
            (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v16 (Pipeline.mem_restRefs_of main_v16 (by decide) (by decide))).trans (result_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.RunValue

end
-- ==== Proof.ReferenceValue.lean ====
/-
  The reference's result is the batched affine map of its arguments.

  The reference forms the weight matrix W from the codebook, the labels and the scales (one stage of its run, never opened
  here: the kernel's program forms the same W by the same operations), contracts the last axis of x with W's first axis,
  spreads the bias over the two leading axes and adds. Read at entry (b, s, o) that is

      (Σ k < 4096, x[b, s, k] · W[k, o]) + bias[o],

  the batched form of Proof/AffineMap.lean: the contraction's index functions and the two broadcasts' are coordinate
  projections.
-/
import proofs.«119743_j74612171866404_2_alg».proof.Proof.Gen.ReferenceIdeal.Read
import proofs.«119743_j74612171866404_2_alg».proof.Proof.AffineMap

noncomputable section

namespace Cert.ReferenceIdeal.RefValue

open Cert.ReferenceIdeal Cert.ReferenceIdeal.Read Idealize.ShloMosaic Idealize.ShloMosaic.ValueIdx

/-- THE REFERENCE'S RESULT, as a function of its arguments: the batched affine map of x, the weight stage and the bias. -/
theorem result_eq (x0 : (⟨S4x2048x4096, .f32⟩ : BufTy).Contents (Elt Ideal)) (x1 : (⟨S65536x8, .f32⟩ : BufTy).Contents (Elt Ideal))
    (x2 : (⟨S4096x512, .i32⟩ : BufTy).Contents (Elt Ideal)) (x3 x4 : (⟨S4096, .f32⟩ : BufTy).Contents (Elt Ideal)) :
    val_main_v15 (F := Ideal) x0 x1 x2 x3 x4 = Cert.AffineMap.batched x0 (val_main_v11 (F := Ideal) x1 x2 x3) x4 := by
  funext i
  obtain ⟨b, s, o, rfl⟩ : ∃ (b : Fin 4) (s : Fin 2048) (o : Fin 4096), i = ix3 b s o := ⟨i 0, i 1, i 2, eq_ix3 i⟩
  rw [val_main_v15_apply, val_main_v12_apply, val_main_v14_apply, val_main_v13_apply]
  show (∑ k : Fin 4096, x0 (lidx_main_v12 (ix3 b s o) k) * val_main_v11 (F := Ideal) x1 x2 x3 (ridx_main_v12 (ix3 b s o) k))
        + x4 (idx_main_v13 (idx_main_v14 (ix3 b s o)))
      = (∑ k : Fin 4096, x0 (ix3 b s k) * val_main_v11 (F := Ideal) x1 x2 x3 (ix2 k o)) + x4 (ix1 o)
  have hl : ∀ k : Fin 4096, lidx_main_v12 (ix3 b s o) k = ix3 b s k := fun k => funext fun a => Fin.ext (by
    match a with | ⟨0, _⟩ => rfl | ⟨1, _⟩ => rfl | ⟨2, _⟩ => rfl)
  have hr : ∀ k : Fin 4096, ridx_main_v12 (ix3 b s o) k = ix2 k o := fun k => funext fun a => Fin.ext (by
    match a with | ⟨0, _⟩ => rfl | ⟨1, _⟩ => rfl)
  have hb : idx_main_v13 (idx_main_v14 (ix3 b s o)) = ix1 o := funext fun a => Fin.ext (by
    match a with | ⟨0, _⟩ => rfl)
  rw [hb]
  exact congrArg (· + x4 (ix1 o)) (Finset.sum_congr rfl fun k _ => by rw [hl k, hr k])

end Cert.ReferenceIdeal.RefValue

end
-- ==== Proof.lean ====
/-
  A linear layer whose weight matrix is decoded from a codebook: the tiled kernel against the plain reference.

  Both programs first form the same weight matrix W (4096 × 4096) on the host, by the same operations in the same order:
  labels that are negative are wrapped by adding 65536, each label picks a row of 8 codebook entries, the rows are laid
  out side by side, and row i of the result is divided by max(1e-8, scale[i]) (the constant is one and the same bit
  pattern in both programs, never evaluated). They then compute

      out[b, s, o] = (Σ k < 4096, x[b, s, k] · W[k, o]) + bias[o]

  in two arrangements. The reference contracts x's last axis with W's first and adds the bias spread over the leading
  axes. The kernel narrows W to bf16 (the identity on the extended reals), flattens x to 8192 rows, walks the rows in
  128 blocks of 64 — each block times the whole of W into a zero accumulator, plus the bias row — and splits the rows
  again. On the extended reals the two are the same sum of the same products at every entry, so no finiteness of the
  inputs is used: the precondition is never opened.

  The modules: Proof/AffineMap.lean states the map in its flat and batched arrangements and the law joining them;
  Proof/BodyAtIndex.lean reads the kernel body's store at an index; Proof/RegionEntry.lean what the region finds in its
  three arrays; Proof/BlocksToArray.lean that the 128 written-back blocks make up the flat map; Proof/KernelRun.lean the
  kernel program's run at the batched map; Proof/ReferenceValue.lean the reference's result as the batched map. Here the
  two programs' weight terms are identified and the five claims assembled.
-/
import proofs.«119743_j74612171866404_2_alg».proof.Defs
import proofs.«119743_j74612171866404_2_alg».proof.Proof.Gen.Kernel
import proofs.«119743_j74612171866404_2_alg».proof.Proof.Gen.Kernel.Skeleton
import proofs.«119743_j74612171866404_2_alg».proof.Proof.Gen.Kernel.Launch
import proofs.«119743_j74612171866404_2_alg».proof.Proof.Gen.Kernel.Points
import proofs.«119743_j74612171866404_2_alg».proof.Proof.Gen.Kernel.Frame
import proofs.«119743_j74612171866404_2_alg».proof.Proof.Gen.KernelIdeal
import proofs.«119743_j74612171866404_2_alg».proof.Proof.Gen.KernelIdeal.Skeleton
import proofs.«119743_j74612171866404_2_alg».proof.Proof.Gen.KernelIdeal.Launch
import proofs.«119743_j74612171866404_2_alg».proof.Proof.Gen.KernelIdeal.Points
import proofs.«119743_j74612171866404_2_alg».proof.Proof.Gen.KernelIdeal.Frame
import proofs.«119743_j74612171866404_2_alg».proof.Proof.Gen.ReferenceIdeal
import proofs.«119743_j74612171866404_2_alg».proof.Proof.Gen.ReferenceIdeal.Run
import proofs.«119743_j74612171866404_2_alg».proof.Proof.Gen.ReferenceIdeal.Read
import proofs.«119743_j74612171866404_2_alg».proof.Proof.Gen.Pre_finite_inputs
import proofs.«119743_j74612171866404_2_alg».proof.Proof.KernelRun
import proofs.«119743_j74612171866404_2_alg».proof.Proof.ReferenceValue
import Idealize.ShloMosaic.Adequacy
import Idealize.ShloMosaic.Init

noncomputable section

namespace Cert.Proof

open Idealize.ShloMosaic Idealize.ShloMosaic.TcCoe Idealize.SL.Sem

/-- THE TWO PROGRAMS FORM ONE WEIGHT MATRIX: the kernel program's term is the reference's stage behind a narrowing to
    bf16, which on the extended reals is the identity; the operations under it are the same, one by one. -/
theorem weights_same (x1 : (⟨Cert.KernelIdeal.S65536x8, .f32⟩ : BufTy).Contents (Elt Ideal))
    (x2 : (⟨Cert.KernelIdeal.S4096x512, .i32⟩ : BufTy).Contents (Elt Ideal))
    (x3 : (⟨Cert.KernelIdeal.S4096, .f32⟩ : BufTy).Contents (Elt Ideal)) :
    Cert.ReferenceIdeal.Read.val_main_v11 (F := Ideal) x1 x2 x3 = Cert.KernelIdeal.Entry.weights x1 x2 x3 := rfl

/-- The word-level kernel program runs and keeps its arguments: its generated frame. -/
theorem frame_kernel : Cert.frame_Kernel := fun m ρ _ => Cert.Kernel.Gen.frame m ρ

/-- The idealized kernel program runs and keeps its arguments: its generated frame. -/
theorem frame_kernel_ideal : Cert.frame_KernelIdeal := fun m ρ _ => Cert.KernelIdeal.Gen.frame m ρ

/-- The idealized reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Idealizing the kernel rewrote no operation: nothing to preserve. -/
theorem preserves : Cert.preserves_Kernel_KernelIdeal := trivial

/-- On the extended reals, from memories that agree on the arguments, both programs end with the batched affine map of
    x, the one weight matrix and the bias. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.1, (hagree c).2.2.1, (hagree c).2.2.2.1, (hagree c).2.2.2.2]
  exact congrArg (fun W => Cert.AffineMap.batched _ W _) (weights_same _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
